-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S4x8x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x8x2048x64_S32x2048x64 : S4x8x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S32x2048x64_S4x8x2048x64 : S32x2048x64.ShapeCasts S4x8x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x8x2048x2048, .f32⟩
  | .hbm, ⟨10, _⟩ => ⟨S_, .f32⟩
  | .hbm, ⟨11, _⟩ => ⟨S4x8x2048, .f32⟩
  | .hbm, ⟨12, _⟩ => ⟨S_, .f32⟩
  | .hbm, ⟨13, _⟩ => ⟨S4x8x2048, .f32⟩
  | .hbm, ⟨14, _⟩ => ⟨S4x8x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .f32⟩
  | .hbm, ⟨18, _⟩ => ⟨S4x8x2048x2048, .f32⟩
  | .hbm, ⟨19, _⟩ => ⟨S_, .f32⟩
  | .hbm, ⟨20, _⟩ => ⟨S4x8x2048, .f32⟩
  | .hbm, ⟨21, _⟩ => ⟨S4x8x2048x1, .f32⟩
  | .hbm, ⟨22, _⟩ => ⟨S4x8x2048x2048, .f32⟩
  | .hbm, ⟨23, _⟩ => ⟨S4x8x2048x2048, .f32⟩
  | .hbm, ⟨24, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.SoftmaxRow.lean ====
/-
  One entry of scaled dot-product attention over the extended reals, written in two arrangements, and the law
  that joins them.

  For a query row `q`, key rows `k n` and one column `v` of the values, the entry is
      ∑ n, softmax (q · k / √d) n * v n.
  `scaleFirst` multiplies the query by the scale before the scores are taken, subtracts the row maximum, and
  divides the WEIGHTED SUM by the sum of the exponentials (one reciprocal per row). `normaliseFirst` scales the
  scores after the dot product, by the reciprocal of a square root, and divides every exponential by their sum
  before weighting. On real inputs the two agree: a finite sum of real products is real, the maximum of finitely
  many reals is real, every exponential is a positive real, so the normaliser is a nonzero real, and then the
  scale and the normaliser move across the finite sums by distributivity.
-/
import Idealize.ShloMosaic.PureOps.Ideal

noncomputable section

namespace Cert.SoftmaxRow

open Idealize.ShloMosaic

variable {N D : Type} [Fintype N] [Fintype D]

/-- The exponentials of a row of scores, each score lowered by `m`. -/
def weights (m : EReal) (s : N → EReal) : N → EReal := fun n => Ideal.exp (s n - m)

/-- The largest score of a row, folded from `ninf`. -/
def rowMax (ninf : EReal) (s : N → EReal) : EReal := (Finset.univ : Finset N).fold max ninf s

/-- Scores with the scale `c` folded into the query. -/
def scoresScaledQuery (c : EReal) (q : D → EReal) (k : N → D → EReal) : N → EReal :=
  fun n => ∑ e, q e * c * k n e

/-- Scores scaled after the dot product, by `one / √c64`. -/
def scoresScaledAfter (c64 one : EReal) (q : D → EReal) (k : N → D → EReal) : N → EReal :=
  fun n => (∑ e, q e * k n e) * Ideal.div one (Ideal.sqrt c64)

/-- The entry with the normaliser applied once, to the weighted sum. -/
def scaleFirst (c ninf one : EReal) (q : D → EReal) (k : N → D → EReal) (v : N → EReal) : EReal :=
  (∑ n, weights (rowMax ninf (scoresScaledQuery c q k)) (scoresScaledQuery c q k) n * v n)
    * Ideal.div one (∑ n, weights (rowMax ninf (scoresScaledQuery c q k)) (scoresScaledQuery c q k) n)

/-- The entry with every weight normalised before the weighted sum; the maximum is joined once more with `ninf`
    and the normaliser is summed from `zero`. -/
def normaliseFirst (c64 ninf one zero : EReal) (q : D → EReal) (k : N → D → EReal) (v : N → EReal) : EReal :=
  ∑ n, Ideal.div (weights (max ninf (rowMax ninf (scoresScaledAfter c64 one q k))) (scoresScaledAfter c64 one q k) n)
      (zero + ∑ n', weights (max ninf (rowMax ninf (scoresScaledAfter c64 one q k))) (scoresScaledAfter c64 one q k) n') * v n

/-- A finite sum of reals, taken in the extended reals, is the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals folded from `-∞` is `-∞` (over no terms) or a real. -/
private theorem fold_max_coe {ι : Type} [DecidableEq ι] (s : Finset ι) (f : ι → ℝ) :
    s.fold max ⊥ (fun n => ((f n : ℝ) : EReal)) = ⊥
      ∨ ∃ μ : ℝ, s.fold max ⊥ (fun n => ((f n : ℝ) : EReal)) = (μ : EReal) := by
  induction s using Finset.induction_on with
  | empty => left; simp
  | insert a s ha ih =>
    right
    rw [Finset.fold_insert ha]
    rcases ih with h | ⟨μ, h⟩
    · exact ⟨f a, by rw [h]; exact max_eq_left bot_le⟩
    · exact ⟨max (f a) μ, by rw [h]; exact (EReal.coe_strictMono.monotone.map_max).symm⟩

/-- Over a nonempty index type the row maximum of reals is a real. -/
private theorem rowMax_coe [Nonempty N] (f : N → ℝ) :
    ∃ μ : ℝ, rowMax ⊥ (fun n => ((f n : ℝ) : EReal)) = (μ : EReal) := by
  classical
  obtain ⟨a⟩ := ‹Nonempty N›
  unfold rowMax
  rw [← Finset.insert_erase (Finset.mem_univ a), Finset.fold_insert (Finset.notMem_erase a _)]
  rcases fold_max_coe (Finset.univ.erase a) f with h | ⟨μ, h⟩
  · exact ⟨f a, by rw [h]; exact max_eq_left bot_le⟩
  · exact ⟨max (f a) μ, by rw [h]; exact (EReal.coe_strictMono.monotone.map_max).symm⟩

/-- With the scale `1/8` in the query, each score is the real `∑ e, q e * (1/8) * k n e`. -/
private theorem scoresScaledQuery_coe (q : D → ℝ) (k : N → D → ℝ) :
    scoresScaledQuery (((1 / 8 : ℝ)) : EReal) (fun e => (q e : EReal)) (fun n e => (k n e : EReal))
      = fun n => ((∑ e, q e * (1 / 8) * k n e : ℝ) : EReal) := by
  funext n
  simp only [scoresScaledQuery, ← EReal.coe_mul, coe_sum]

/-- `√64 = 8`. -/
private theorem sqrt64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- Scaled after the dot product by `1 / √64`, each score is the same real. -/
private theorem scoresScaledAfter_coe (q : D → ℝ) (k : N → D → ℝ) :
    scoresScaledAfter ((64 : ℝ) : EReal) 1 (fun e => (q e : EReal)) (fun n e => (k n e : EReal))
      = fun n => ((∑ e, q e * (1 / 8) * k n e : ℝ) : EReal) := by
  funext n
  simp only [scoresScaledAfter, sqrt64, Ideal.div_coe (by norm_num : (8 : ℝ) ≠ 0), one_mul,
    ← EReal.coe_mul, coe_sum]
  congr 1
  rw [Finset.sum_mul]
  exact Finset.sum_congr rfl (fun e _ => by ring)

/-- THE LAW: on real inputs, with the scale `1/8` on one side and `1 / √64` on the other, `-∞` under the
    maximum, and the sums started from zero, the two arrangements are one extended real. -/
theorem scaleFirst_eq_normaliseFirst [Nonempty N] (q : D → ℝ) (k : N → D → ℝ) (v : N → ℝ) :
    scaleFirst (((1 / 8 : ℝ) : EReal)) ⊥ 1 (fun e => (q e : EReal)) (fun n e => (k n e : EReal)) (fun n => (v n : EReal))
      = normaliseFirst ((64 : ℝ) : EReal) ⊥ 1 0 (fun e => (q e : EReal)) (fun n e => (k n e : EReal)) (fun n => (v n : EReal)) := by
  classical
  unfold scaleFirst normaliseFirst
  rw [scoresScaledQuery_coe, scoresScaledAfter_coe]
  -- the row maximum is a real μ, and joining it once more with -∞ changes nothing
  obtain ⟨μ, hμ⟩ : ∃ μ : ℝ, rowMax ⊥ (fun n => ((∑ e, q e * (1 / 8) * k n e : ℝ) : EReal)) = (μ : EReal) :=
    rowMax_coe (fun n => ∑ e, q e * (1 / 8) * k n e)
  rw [hμ, max_eq_right (bot_le : (⊥ : EReal) ≤ (μ : EReal))]
  -- every weight is a positive real
  have hw : weights (μ : EReal) (fun n => ((∑ e, q e * (1 / 8) * k n e : ℝ) : EReal))
      = fun n => ((Real.exp ((∑ e, q e * (1 / 8) * k n e) - μ) : ℝ) : EReal) := by
    funext n
    simp only [weights, ← EReal.coe_sub, Ideal.exp_coe]
  rw [hw]
  -- so the normaliser is a positive real L, and dividing by it is multiplying by 1/L
  have hL : (0 : ℝ) < ∑ n, Real.exp ((∑ e, q e * (1 / 8) * k n e) - μ) :=
    Finset.sum_pos (fun n _ => Real.exp_pos _) Finset.univ_nonempty
  simp only [coe_sum, zero_add, Ideal.div_coe hL.ne', one_mul, ← EReal.coe_mul]
  -- both sides are now real; 1/L moves across the finite sum
  congr 1
  rw [Finset.sum_mul]
  exact Finset.sum_congr rfl (fun n _ => by ring)

end Cert.SoftmaxRow

end
-- ==== Proof.KernelBlock.lean ====
/-
  What one grid point of the kernel computes, entry by entry.

  The body loads a block of 512 query rows and the head's 2048 key rows and value rows, and stores
      (exp (S - rowmax S) · V) * (1 / rowsum (exp (S - rowmax S))),   S = (Q * 1/8) · Kᵀ.
  Its stages are named below; they reassemble to the body's payload by unfolding. Each stage is read at an index:
  a matrix product as the sum over the contracted coordinate, a row maximum as the fold of `max` along the row, a
  row sum as the sum along the row, the keep-dims column forms by their one coordinate. Entry `(r, d)` of the stored
  block is then `SoftmaxRow.scaleFirst` of query row `r`, the key rows, and column `d` of the values.
-/
import proofs.«172825_j29764123361713_2_alg».proof.Proof.Gen.KernelIdeal.Skeleton
import proofs.«172825_j29764123361713_2_alg».proof.Proof.SoftmaxRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The stages of the body -/

/-- The query block times one eighth. -/
def scaledQuery (x0 : Vec Ideal S1x512x64 .f32) : FVec Ideal S512x64 .bf16 :=
  truncf .bf16 (mulf (shapeCast S512x64 x0 shapeCasts_S1x512x64_S512x64) (broadcast S512x64 (Scalar.ofBits .f32 0x3E000000#32))) bitsLt_bf16_f32

/-- A key or value block as a matrix of 2048 rows. -/
def rows (x : Vec Ideal S1x2048x64 .f32) : FVec Ideal S2048x64 .bf16 :=
  truncf .bf16 (shapeCast S2048x64 x shapeCasts_S1x2048x64_S2048x64) bitsLt_bf16_f32

/-- The scores: scaled queries against keys. -/
def scores (x0 : Vec Ideal S1x512x64 .f32) (x1 : Vec Ideal S1x2048x64 .f32) : FVec Ideal S512x2048 .f32 :=
  matmul dot_S512x64_S2048x64_S512x2048_1_1_0_0_n_n none (scaledQuery x0) (rows x1) (constant S512x2048 .f32 0x00000000#32)

/-- Each row's largest score. -/
def rowMaxima (x0 : Vec Ideal S1x512x64 .f32) (x1 : Vec Ideal S1x2048x64 .f32) : FVec Ideal S512 .f32 :=
  multiReduction .maximumf [1] S512 (scores x0 x1) 0xFF800000#32 reduces_S512x2048_S512 (.inl rfl) rfl

/-- The exponentials of the scores lowered by their row's maximum. -/
def expScores (x0 : Vec Ideal S1x512x64 .f32) (x1 : Vec Ideal S1x2048x64 .f32) : FVec Ideal S512x2048 .f32 :=
  exp (subf (scores x0 x1) (broadcastTo S512x2048 (shapeCast S512x1 (rowMaxima x0 x1) shapeCasts_S512_S512x1) broadcasts_S512x1_S512x2048))

/-- Each row's sum of exponentials. -/
def rowSums (x0 : Vec Ideal S1x512x64 .f32) (x1 : Vec Ideal S1x2048x64 .f32) : FVec Ideal S512 .f32 :=
  multiReduction .add [1] S512 (expScores x0 x1) 0x00000000#32 reduces_S512x2048_S512 (.inl rfl) rfl

/-- One over each row's sum, as a column. -/
def invSums (x0 : Vec Ideal S1x512x64 .f32) (x1 : Vec Ideal S1x2048x64 .f32) : FVec Ideal S512x1 .f32 :=
  divf (broadcast S512x1 (Scalar.ofBits .f32 0x3F800000#32)) (shapeCast S512x1 (rowSums x0 x1) shapeCasts_S512_S512x1)

/-- The exponentials against the values. -/
def weighted (x0 : Vec Ideal S1x512x64 .f32) (x1 x2 : Vec Ideal S1x2048x64 .f32) : FVec Ideal S512x64 .f32 :=
  matmul dot_S512x2048_S2048x64_S512x64_1_0_0_1_n_n none (truncf .bf16 (expScores x0 x1) bitsLt_bf16_f32) (rows x2) (constant S512x64 .f32 0x00000000#32)

/-- The body's payload is these stages put together. -/
theorem payload_eq (x0 : Vec Ideal S1x512x64 .f32) (x1 x2 : Vec Ideal S1x2048x64 .f32) :
    k0_pay1 x0 x1 x2 = shapeCast S1x512x64 (mulf (weighted x0 x1 x2) (broadcastTo S512x64 (invSums x0 x1) broadcasts_S512x1_S512x64)) shapeCasts_S512x64_S1x512x64 := rfl

/-! ## Layout pieces: a column kept as a unit axis -/

/-- A vector of 512 cast to a column reads its one coordinate. -/
theorem column_apply {α : Type} (v : S512.Idx → α) (r : Fin 512) (u : Fin 1) :
    shapeCast S512x1 v shapeCasts_S512_S512x1 (ix2 r u) = v (ix1 r) :=
  shapeCast_apply v shapeCasts_S512_S512x1 (ix2 r u) (ix1 r) (by
    have hu : u.val = 0 := by omega
    rw [Shape.rowMajor_val_two, Shape.rowMajor_val_one]
    show r.val = r.val * 1 + u.val
    omega)

/-- A column broadcast along 2048 lanes reads the column. -/
theorem column_wide_apply {α : Type} (w : S512x1.Idx → α) (r : Fin 512) (n : Fin 2048) :
    broadcastTo S512x2048 w broadcasts_S512x1_S512x2048 (ix2 r n) = w (ix2 r (0 : Fin 1)) :=
  broadcastTo_apply w broadcasts_S512x1_S512x2048 (ix2 r n) (ix2 r (0 : Fin 1)) fun ax =>
    match ax with
    | ⟨0, _⟩ => by show r.val = if (512 : Nat) = 1 then 0 else r.val; rw [if_neg (by decide)]
    | ⟨1, _⟩ => by show 0 = if (1 : Nat) = 1 then 0 else n.val; rw [if_pos rfl]

/-- A column broadcast along 64 lanes reads the column. -/
theorem column_narrow_apply {α : Type} (w : S512x1.Idx → α) (r : Fin 512) (d : Fin 64) :
    broadcastTo S512x64 w broadcasts_S512x1_S512x64 (ix2 r d) = w (ix2 r (0 : Fin 1)) :=
  broadcastTo_apply w broadcasts_S512x1_S512x64 (ix2 r d) (ix2 r (0 : Fin 1)) fun ax =>
    match ax with
    | ⟨0, _⟩ => by show r.val = if (512 : Nat) = 1 then 0 else r.val; rw [if_neg (by decide)]
    | ⟨1, _⟩ => by show 0 = if (1 : Nat) = 1 then 0 else d.val; rw [if_pos rfl]

/-! ## The stages at an index -/

theorem scaledQuery_apply (x0 : Vec Ideal S1x512x64 .f32) (r : Fin 512) (e : Fin 64) :
    scaledQuery x0 (ix2 r e) = x0 (ix3 (0 : Fin 1) r e) * Ideal.ofBits .f32 0x3E000000#32 := by
  show shapeCast S512x64 x0 shapeCasts_S1x512x64_S512x64 (ix2 r e) * Ideal.ofBits .f32 0x3E000000#32 = _
  rw [shapeCast_1ab_ab_apply]

theorem rows_apply (x : Vec Ideal S1x2048x64 .f32) (n : Fin 2048) (e : Fin 64) :
    rows x (ix2 n e) = x (ix3 (0 : Fin 1) n e) := by
  show shapeCast S2048x64 x shapeCasts_S1x2048x64_S2048x64 (ix2 n e) = _
  rw [shapeCast_1ab_ab_apply]

/-- The first product's operand indices, coordinate by coordinate. -/
theorem queryKey_lhs_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem queryKey_lhs_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem queryKey_rhs_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem queryKey_rhs_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys: the sum over the 64 feature coordinates. -/
theorem queryKey_apply (A : FVec Ideal S512x64 .bf16) (B : FVec Ideal S2048x64 .bf16) (r : Fin 512) (n : Fin 2048) :
    matmul dot_S512x64_S2048x64_S512x2048_1_1_0_0_n_n none A B (constant S512x2048 .f32 0x00000000#32) (ix2 r n)
      = ∑ e : Fin 64, A (ix2 r e) * B (ix2 n e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 r n) ((contrEquiv1 dot_S512x64_S2048x64_S512x2048_1_1_0_0_n_n 64 rfl rfl).symm e) = ix2 r e := funext fun a => Fin.ext (by
    match a with
    | ⟨0, _⟩ => exact queryKey_lhs_0 _ _
    | ⟨1, _⟩ => exact (queryKey_lhs_1 _ _).trans he)
  have er : dot_S512x64_S2048x64_S512x2048_1_1_0_0_n_n.rhsIdx (ix2 r n) ((contrEquiv1 dot_S512x64_S2048x64_S512x2048_1_1_0_0_n_n 64 rfl rfl).symm e) = ix2 n e := funext fun a => Fin.ext (by
    match a with
    | ⟨0, _⟩ => exact queryKey_rhs_0 _ _
    | ⟨1, _⟩ => exact (queryKey_rhs_1 _ _).trans he)
  rw [el, er]

/-- The second product's operand indices, coordinate by coordinate. -/
theorem weightValue_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem weightValue_lhs_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem weightValue_rhs_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem weightValue_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values: the sum over the 2048 keys. -/
theorem weightValue_apply (W : FVec Ideal S512x2048 .bf16) (B : FVec Ideal S2048x64 .bf16) (r : Fin 512) (d : Fin 64) :
    matmul dot_S512x2048_S2048x64_S512x64_1_0_0_1_n_n none W B (constant S512x64 .f32 0x00000000#32) (ix2 r d)
      = ∑ n : Fin 2048, W (ix2 r n) * B (ix2 n d) := by
  simp only [matmul]
  rw [Ideal.matmul_constant_zero_apply, ← Equiv.sum_comp (contrEquiv1 dot_S512x2048_S2048x64_S512x64_1_0_0_1_n_n 2048 rfl rfl).symm]
  refine Finset.sum_congr rfl fun n _ => ?_
  have hn := contrEquiv1_symm_val dot_S512x2048_S2048x64_S512x64_1_0_0_1_n_n 2048 rfl rfl n
  have el : dot_S512x2048_S2048x64_S512x64_1_0_0_1_n_n.lhsIdx (ix2 r d) ((contrEquiv1 dot_S512x2048_S2048x64_S512x64_1_0_0_1_n_n 2048 rfl rfl).symm n) = ix2 r n := funext fun a => Fin.ext (by
    match a with
    | ⟨0, _⟩ => exact weightValue_lhs_0 _ _
    | ⟨1, _⟩ => exact (weightValue_lhs_1 _ _).trans hn)
  have er : dot_S512x2048_S2048x64_S512x64_1_0_0_1_n_n.rhsIdx (ix2 r d) ((contrEquiv1 dot_S512x2048_S2048x64_S512x64_1_0_0_1_n_n 2048 rfl rfl).symm n) = ix2 n d := funext fun a => Fin.ext (by
    match a with
    | ⟨0, _⟩ => exact (weightValue_rhs_0 _ _).trans hn
    | ⟨1, _⟩ => exact weightValue_rhs_1 _ _)
  rw [el, er]

/-- A row's maximum: the fold of `max` along the row, from the word for minus infinity. -/
theorem rowMaximum_apply (X : FVec Ideal S512x2048 .f32) (r : Fin 512) :
    multiReduction .maximumf [1] S512 X 0xFF800000#32 reduces_S512x2048_S512 (.inl rfl) rfl (ix1 r)
      = (Finset.univ : Finset (Fin 2048)).fold max (Ideal.ofBits .f32 0xFF800000#32) (fun n => X (ix2 r n)) := by
  refine (Ideal.multiReduction_maximumf_single X 0xFF800000#32 reduces_S512x2048_S512 (.inl rfl) rfl (ix1 r)).trans ?_
  have e : (X ∘ reduces_S512x2048_S512.lift (ix1 r)) = fun n : Fin 2048 => X (ix2 r n) :=
    funext fun n => congrArg X (funext fun a => Fin.ext (by match a with | ⟨0, _⟩ => rfl | ⟨1, _⟩ => rfl))
  rw [e]
  rfl

/-- A row's sum: the sum along the row. -/
theorem rowSum_apply (X : FVec Ideal S512x2048 .f32) (r : Fin 512) :
    multiReduction .add [1] S512 X 0x00000000#32 reduces_S512x2048_S512 (.inl rfl) rfl (ix1 r)
      = ∑ n : Fin 2048, X (ix2 r n) := by
  refine (Ideal.multiReduction_add_single X 0x00000000#32 reduces_S512x2048_S512 (.inl rfl) rfl (ix1 r)).trans ?_
  exact Finset.sum_congr rfl fun n _ => congrArg X (funext fun a => Fin.ext (by match a with | ⟨0, _⟩ => rfl | ⟨1, _⟩ => rfl))

/-! ## The stored block, entry by entry -/

/-- Query row `r` of a block, the key rows, and column `d` of the values, as plain functions. -/
abbrev queryRow (x0 : Vec Ideal S1x512x64 .f32) (r : Fin 512) : Fin 64 → EReal := fun e => x0 (ix3 (0 : Fin 1) r e)
abbrev keyRows (x1 : Vec Ideal S1x2048x64 .f32) : Fin 2048 → Fin 64 → EReal := fun n e => x1 (ix3 (0 : Fin 1) n e)
abbrev valueCol (x2 : Vec Ideal S1x2048x64 .f32) (d : Fin 64) : Fin 2048 → EReal := fun n => x2 (ix3 (0 : Fin 1) n d)

/-- Row `r`'s scores, as the law spells them. -/
abbrev rowScores (x0 : Vec Ideal S1x512x64 .f32) (x1 : Vec Ideal S1x2048x64 .f32) (r : Fin 512) : Fin 2048 → EReal :=
  Cert.SoftmaxRow.scoresScaledQuery (Ideal.ofBits .f32 0x3E000000#32) (queryRow x0 r) (keyRows x1)

/-- Row `r`'s exponentials, as the law spells them. -/
abbrev rowWeights (x0 : Vec Ideal S1x512x64 .f32) (x1 : Vec Ideal S1x2048x64 .f32) (r : Fin 512) : Fin 2048 → EReal :=
  Cert.SoftmaxRow.weights (Cert.SoftmaxRow.rowMax (Ideal.ofBits .f32 0xFF800000#32) (rowScores x0 x1 r)) (rowScores x0 x1 r)

theorem scores_apply (x0 : Vec Ideal S1x512x64 .f32) (x1 : Vec Ideal S1x2048x64 .f32) (r : Fin 512) (n : Fin 2048) :
    scores x0 x1 (ix2 r n) = rowScores x0 x1 r n := by
  unfold scores
  rw [queryKey_apply]
  exact Finset.sum_congr rfl fun e _ => by rw [scaledQuery_apply, rows_apply]

theorem rowMaxima_apply (x0 : Vec Ideal S1x512x64 .f32) (x1 : Vec Ideal S1x2048x64 .f32) (r : Fin 512) :
    rowMaxima x0 x1 (ix1 r) = Cert.SoftmaxRow.rowMax (Ideal.ofBits .f32 0xFF800000#32) (rowScores x0 x1 r) := by
  unfold rowMaxima
  rw [rowMaximum_apply]
  unfold Cert.SoftmaxRow.rowMax
  exact congrArg (fun s => (Finset.univ : Finset (Fin 2048)).fold max (Ideal.ofBits .f32 0xFF800000#32) s)
    (funext fun n => scores_apply x0 x1 r n)

theorem expScores_apply (x0 : Vec Ideal S1x512x64 .f32) (x1 : Vec Ideal S1x2048x64 .f32) (r : Fin 512) (n : Fin 2048) :
    expScores x0 x1 (ix2 r n) = rowWeights x0 x1 r n := by
  show Ideal.exp (scores x0 x1 (ix2 r n)
    - broadcastTo S512x2048 (shapeCast S512x1 (rowMaxima x0 x1) shapeCasts_S512_S512x1) broadcasts_S512x1_S512x2048 (ix2 r n)) = _
  rw [column_wide_apply, column_apply, rowMaxima_apply, scores_apply]
  rfl

theorem rowSums_apply (x0 : Vec Ideal S1x512x64 .f32) (x1 : Vec Ideal S1x2048x64 .f32) (r : Fin 512) :
    rowSums x0 x1 (ix1 r) = ∑ n : Fin 2048, rowWeights x0 x1 r n := by
  unfold rowSums
  rw [rowSum_apply]
  exact Finset.sum_congr rfl fun n _ => expScores_apply x0 x1 r n

theorem invSums_apply (x0 : Vec Ideal S1x512x64 .f32) (x1 : Vec Ideal S1x2048x64 .f32) (r : Fin 512) (u : Fin 1) :
    invSums x0 x1 (ix2 r u) = Ideal.div (Ideal.ofBits .f32 0x3F800000#32) (∑ n : Fin 2048, rowWeights x0 x1 r n) := by
  show Ideal.div (Ideal.ofBits .f32 0x3F800000#32) (shapeCast S512x1 (rowSums x0 x1) shapeCasts_S512_S512x1 (ix2 r u)) = _
  rw [column_apply, rowSums_apply]

theorem weighted_apply (x0 : Vec Ideal S1x512x64 .f32) (x1 x2 : Vec Ideal S1x2048x64 .f32) (r : Fin 512) (d : Fin 64) :
    weighted x0 x1 x2 (ix2 r d) = ∑ n : Fin 2048, rowWeights x0 x1 r n * valueCol x2 d n := by
  unfold weighted
  rw [weightValue_apply]
  refine Finset.sum_congr rfl fun n _ => ?_
  rw [rows_apply]
  exact congrArg (· * x2 (ix3 (0 : Fin 1) n d)) (expScores_apply x0 x1 r n)

/-- ENTRY `(r, d)` OF THE STORED BLOCK: the scale-first arrangement of query row `r`, the key rows and column `d`
    of the values, over the words the body spells. -/
theorem entry_apply (x0 : Vec Ideal S1x512x64 .f32) (x1 x2 : Vec Ideal S1x2048x64 .f32) (u : Fin 1) (r : Fin 512) (d : Fin 64) :
    k0_pay1 x0 x1 x2 (ix3 u r d)
      = Cert.SoftmaxRow.scaleFirst (Ideal.ofBits .f32 0x3E000000#32) (Ideal.ofBits .f32 0xFF800000#32) (Ideal.ofBits .f32 0x3F800000#32)
          (queryRow x0 r) (keyRows x1) (valueCol x2 d) := by
  rw [payload_eq, shapeCast_ab_1ab_apply]
  show weighted x0 x1 x2 (ix2 r d) * broadcastTo S512x64 (invSums x0 x1) broadcasts_S512x1_S512x64 (ix2 r d) = _
  rw [column_narrow_apply, weighted_apply, invSums_apply]
  rfl

end Cert.KernelIdeal.Block

end
-- ==== Proof.Attention.lean ====
/-
  The result both programs are shown to compute, as one function of the three argument arrays [4, 8, 2048, 64]:
  entry `(b, h, r, d)` is the scale-first attention entry (`SoftmaxRow.scaleFirst`, over the float words the kernel
  spells) of query row `(b, h, r)`, the key rows of head `(b, h)`, and column `d` of that head's values.
-/
import proofs.«172825_j29764123361713_2_alg».proof.Proof.SoftmaxRow
import Idealize.ShloMosaic.Lib.ValueIdx

noncomputable section

namespace Cert.Attention

open Idealize.ShloMosaic Idealize.ShloMosaic.ValueIdx

/-- The shape of the arguments and of the result. -/
abbrev Arr : Shape := ⟨4, ![4, 8, 2048, 64]⟩

/-- One entry, at explicit coordinates. -/
def entry (Q K V : Arr.Idx → EReal) (b : Fin 4) (h : Fin 8) (r : Fin 2048) (d : Fin 64) : EReal :=
  Cert.SoftmaxRow.scaleFirst (Ideal.ofBits .f32 0x3E000000#32) (Ideal.ofBits .f32 0xFF800000#32) (Ideal.ofBits .f32 0x3F800000#32)
    (fun e : Fin 64 => Q (ix4 b h r e)) (fun (n : Fin 2048) (e : Fin 64) => K (ix4 b h n e)) (fun n : Fin 2048 => V (ix4 b h n d))

/-- The whole result array. -/
def result (Q K V : Arr.Idx → EReal) : Arr.Idx → EReal := fun i =>
  entry Q K V ⟨(i 0).val, (i 0).isLt⟩ ⟨(i 1).val, (i 1).isLt⟩ ⟨(i 2).val, (i 2).isLt⟩ ⟨(i 3).val, (i 3).isLt⟩

/-- At an index written by its coordinates the result is the entry. -/
theorem result_ix4 (Q K V : Arr.Idx → EReal) (b : Fin 4) (h : Fin 8) (r : Fin 2048) (d : Fin 64) :
    result Q K V (ix4 b h r d) = entry Q K V b h r d := rfl

end Cert.Attention

end
-- ==== Proof.KernelArray.lean ====
/-
  From what each grid point stores to the whole result of the kernel program.

  The program flattens batch and head into 32 heads, launches a grid of 32 heads by 4 blocks of 512 query rows, and
  unflattens the result. Grid point `(bh, qb)` reads query rows `512·qb … 512·qb + 511` of head `bh` and all of that
  head's key and value rows, and writes the same rows of the output; the 128 blocks tile the output array, so the
  array after the launch is one function of the three flattened inputs: entry `(bh, r, d)` is the scale-first
  attention entry of query row `(bh, r)`, head `bh`'s keys, and column `d` of head `bh`'s values. Flattening
  sends `(b, h)` to `8·b + h` and leaves the last two coordinates alone, before the launch and after it.
-/
import proofs.«172825_j29764123361713_2_alg».proof.Proof.Gen.KernelIdeal.Frame
import proofs.«172825_j29764123361713_2_alg».proof.Proof.KernelBlock
import proofs.«172825_j29764123361713_2_alg».proof.Proof.Attention
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result of the launch, head by head -/

/-- Entry `(bh, r, d)` from the three flattened arrays. -/
def headEntry (A0 A1 A2 : S32x2048x64.Idx → EReal) (bh : Fin 32) (r : Fin 2048) (d : Fin 64) : EReal :=
  Cert.SoftmaxRow.scaleFirst (Ideal.ofBits .f32 0x3E000000#32) (Ideal.ofBits .f32 0xFF800000#32) (Ideal.ofBits .f32 0x3F800000#32)
    (fun e : Fin 64 => A0 (ix3 bh r e)) (fun (n : Fin 2048) (e : Fin 64) => A1 (ix3 bh n e)) (fun n : Fin 2048 => A2 (ix3 bh n d))

/-- The launch's output array as one function of its input arrays. -/
def headsResult (A0 A1 A2 : S32x2048x64.Idx → EReal) : S32x2048x64.Idx → EReal := fun i =>
  headEntry A0 A1 A2 ⟨(i 0).val, (i 0).isLt⟩ ⟨(i 1).val, (i 1).isLt⟩ ⟨(i 2).val, (i 2).isLt⟩

/-! ## The windows over the grid -/

theorem hz3 : (![0, 0, 0] : Fin 3 → Nat) = fun _ => 0 := funext fun a => by fin_cases a <;> rfl

/-- The printed index maps, decided over the 128 points: the query window moves with the output window, the key and
    value windows follow its head coordinate only, and the output's block indices stay in range. -/
theorem window_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 3 ∧ win0_3.index t (2 : Fin 3) = 0 :=
  (by decide +kernel : ∀ t : Fin grid0.N, _)

/-- Every (head, row block) is some point's. -/
theorem window_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-! ## What a point writes back -/

/-- A stored block whose loaded blocks are the named rows of three arrays holds those rows' entries. -/
theorem entry_of_rows (A0 A1 A2 : S32x2048x64.Idx → EReal) (x0 : Vec Ideal S1x512x64 .f32) (x1 x2 : Vec Ideal S1x2048x64 .f32)
    (bh : Fin 32) (row : Fin 512 → Fin 2048)
    (h0 : ∀ (r : Fin 512) (e : Fin 64), x0 (ix3 (0 : Fin 1) r e) = A0 (ix3 bh (row r) e))
    (h1 : ∀ (n : Fin 2048) (e : Fin 64), x1 (ix3 (0 : Fin 1) n e) = A1 (ix3 bh n e))
    (h2 : ∀ (n : Fin 2048) (e : Fin 64), x2 (ix3 (0 : Fin 1) n e) = A2 (ix3 bh n e))
    (u : Fin 1) (r : Fin 512) (d : Fin 64) :
    k0_pay1 x0 x1 x2 (ix3 u r d) = headEntry A0 A1 A2 bh (row r) d := by
  rw [Block.entry_apply]
  unfold headEntry
  have e0 : Block.queryRow x0 r = fun e : Fin 64 => A0 (ix3 bh (row r) e) := funext fun e => h0 r e
  have e1 : Block.keyRows x1 = fun (n : Fin 2048) (e : Fin 64) => A1 (ix3 bh n e) := funext fun n => funext fun e => h1 n e
  have e2 : Block.valueCol x2 d = fun n : Fin 2048 => A2 (ix3 bh n d) := funext fun n => h2 n d
  rw [e0, e1, e2]

/-- `headEntry` depends on its coordinates through their values only. -/
theorem headEntry_congr (A0 A1 A2 : S32x2048x64.Idx → EReal) {b b' : Fin 32} {r r' : Fin 2048} {d d' : Fin 64}
    (hb : b.val = b'.val) (hr : r.val = r'.val) (hd : d.val = d'.val) : headEntry A0 A1 A2 b r d = headEntry A0 A1 A2 b' r' d' := by
  obtain rfl := Fin.ext hb; obtain rfl := Fin.ext hr; obtain rfl := Fin.ext hd; rfl

/-- WHAT POINT `t` WRITES BACK is block `t` of `headsResult` of the flattened arrays as the launch finds them. -/
theorem flushed_eq (c : Dev nD) (t : Fin cfg0.N) :
    (dats m 0 c).flushed 3 t = ((cfg0.win 3).blk t).view.read (Elt Ideal) (headsResult (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨e00, e01, e02, e10, e11, e12, e20, e21, e22, b0, b1, e32⟩ := window_facts t
  refine funext fun (j : S1x512x64.Idx) => ?_
  obtain ⟨u, r, d, rfl⟩ : ∃ (u : Fin 1) (r : Fin 512) (d : Fin 64), j = ix3 u r d := ⟨j 0, j 1, j 2, eq_ix3 j⟩
  have hu : u.val = 0 := by omega
  have hr : r.val < 512 := r.isLt
  show k0_pay1 (iblk m c 0 t) (iblk m c 1 t) (iblk m c 2 t) (ix3 u r d)
    = headsResult (V m c main_v0) (V m c main_v1) (V m c main_v2) (((cfg0.win 3).blk t).view.emb (ix3 u r d))
  refine (entry_of_rows (V m c main_v0) (V m c main_v1) (V m c main_v2) (iblk m c 0 t) (iblk m c 1 t) (iblk m c 2 t)
    ⟨win0_3.index t (0 : Fin 3), by omega⟩ (fun r' => ⟨win0_3.index t (1 : Fin 3) * 512 + r'.val, by have := r'.isLt; omega⟩)
    ?_ ?_ ?_ u r d).trans ?_
  · intro r' e
    have hr' : r'.val < 512 := r'.isLt
    show V m c main_v0 (((cfg0.win 0).blk t).view.emb (ix3 (0 : Fin 1) r' e)) = _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * r'.val = win0_3.index t (1 : Fin 3) * 512 + r'.val; omega
    | ⟨2, _⟩ => show win0_0.index t (2 : Fin 3) * 64 + 1 * e.val = e.val; omega
  · intro n e
    show V m c main_v1 (((cfg0.win 1).blk t).view.emb (ix3 (0 : Fin 1) n e)) = _
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * n.val = n.val; omega
    | ⟨2, _⟩ => show win0_1.index t (2 : Fin 3) * 64 + 1 * e.val = e.val; omega
  · intro n e
    show V m c main_v2 (((cfg0.win 2).blk t).view.emb (ix3 (0 : Fin 1) n e)) = _
    refine congrArg (V m c main_v2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * n.val = n.val; omega
    | ⟨2, _⟩ => show win0_2.index t (2 : Fin 3) * 64 + 1 * e.val = e.val; omega
  · unfold headsResult
    exact headEntry_congr _ _ _
      (show win0_3.index t (0 : Fin 3) = win0_3.index t (0 : Fin 3) * 1 + 1 * u.val by omega)
      (show win0_3.index t (1 : Fin 3) * 512 + r.val = win0_3.index t (1 : Fin 3) * 512 + 1 * r.val by omega)
      (show d.val = win0_3.index t (2 : Fin 3) * 64 + 1 * d.val by omega)

/-! ## The blocks tile the output -/

/-- An index of the output is in point `t`'s block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- Row `r` of head `bh` lies in the block of the point `(bh, r / 512)`. -/
theorem cover (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := window_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the launch. -/
theorem launched (c : Dev nD) :
    (dats m 0 c).arrAt 3 cfg0.N = headsResult (V m c main_v0) (V m c main_v1) (V m c main_v2) :=
  (dats m 0 c).arrAt_eq_of_cover 3 (headsResult (V m c main_v0) (V m c main_v1) (V m c main_v2)) (fun t _ => flushed_eq m c t) cover

/-! ## Flattening batch and head, before the launch and after it -/

/-- The flattened array at `(bh, n, e)` is the argument at `(bh / 8, bh % 8, n, e)`. -/
theorem flatten_apply {α : Type} (X : S4x8x2048x64.Idx → α) (bh : Fin 32) (n : Fin 2048) (e : Fin 64) :
    shapeCast S32x2048x64 X shapeCasts_S4x8x2048x64_S32x2048x64 (ix3 bh n e)
      = X (ix4 (⟨bh.val / 8, by have := bh.isLt; omega⟩ : Fin 4) (⟨bh.val % 8, by omega⟩ : Fin 8) n e) :=
  shapeCast_apply X shapeCasts_S4x8x2048x64_S32x2048x64 _ _ (by
    rw [Shape.rowMajor_val_four, Shape.rowMajor_val_three]
    show ((bh.val / 8 * 8 + bh.val % 8) * 2048 + n.val) * 64 + e.val = (bh.val * 2048 + n.val) * 64 + e.val
    have : bh.val / 8 * 8 + bh.val % 8 = bh.val := by omega
    rw [this])

/-- The unflattened array at `(b, h, r, d)` is the flat one at `(8·b + h, r, d)`. -/
theorem unflatten_apply {α : Type} (Y : S32x2048x64.Idx → α) (b : Fin 4) (h : Fin 8) (r : Fin 2048) (d : Fin 64) :
    shapeCast S4x8x2048x64 Y shapeCasts_S32x2048x64_S4x8x2048x64 (ix4 b h r d)
      = Y (ix3 (⟨b.val * 8 + h.val, by have := b.isLt; have := h.isLt; omega⟩ : Fin 32) r d) :=
  shapeCast_apply Y shapeCasts_S32x2048x64_S4x8x2048x64 _ _ (by
    rw [Shape.rowMajor_val_three, Shape.rowMajor_val_four]
    rfl)

/-- The launch finds each flattened input as the flattening of its argument. -/
theorem flat0 (c : Dev nD) : V m c main_v0 = shapeCast S32x2048x64 (m ((c : Thread nD τ).loc main_arg0)) shapeCasts_S4x8x2048x64_S32x2048x64 := by
  show StableHlo.after hostOps0 (fun b => m (c, b)) (Proc.devRef .tc main_v0) = _
  after_results
  rfl
theorem flat1 (c : Dev nD) : V m c main_v1 = shapeCast S32x2048x64 (m ((c : Thread nD τ).loc main_arg1)) shapeCasts_S4x8x2048x64_S32x2048x64 := by
  show StableHlo.after hostOps0 (fun b => m (c, b)) (Proc.devRef .tc main_v1) = _
  after_results
  rfl
theorem flat2 (c : Dev nD) : V m c main_v2 = shapeCast S32x2048x64 (m ((c : Thread nD τ).loc main_arg2)) shapeCasts_S4x8x2048x64_S32x2048x64 := by
  show StableHlo.after hostOps0 (fun b => m (c, b)) (Proc.devRef .tc main_v2) = _
  after_results
  rfl

/-- One head's entry of the flattened arrays is the entry of the arguments at the unflattened head. -/
theorem headEntry_flat (Q K W : S4x8x2048x64.Idx → EReal) (bh : Fin 32) (r : Fin 2048) (d : Fin 64) :
    headEntry (shapeCast S32x2048x64 Q shapeCasts_S4x8x2048x64_S32x2048x64) (shapeCast S32x2048x64 K shapeCasts_S4x8x2048x64_S32x2048x64)
        (shapeCast S32x2048x64 W shapeCasts_S4x8x2048x64_S32x2048x64) bh r d
      = Cert.Attention.entry Q K W (⟨bh.val / 8, by have := bh.isLt; omega⟩ : Fin 4) (⟨bh.val % 8, by omega⟩ : Fin 8) r d := by
  unfold headEntry Cert.Attention.entry
  have e0 : (fun e : Fin 64 => shapeCast S32x2048x64 Q shapeCasts_S4x8x2048x64_S32x2048x64 (ix3 bh r e))
      = fun e : Fin 64 => Q (ix4 (⟨bh.val / 8, by have := bh.isLt; omega⟩ : Fin 4) (⟨bh.val % 8, by omega⟩ : Fin 8) r e) :=
    funext fun e => flatten_apply Q bh r e
  have e1 : (fun (n : Fin 2048) (e : Fin 64) => shapeCast S32x2048x64 K shapeCasts_S4x8x2048x64_S32x2048x64 (ix3 bh n e))
      = fun (n : Fin 2048) (e : Fin 64) => K (ix4 (⟨bh.val / 8, by have := bh.isLt; omega⟩ : Fin 4) (⟨bh.val % 8, by omega⟩ : Fin 8) n e) :=
    funext fun n => funext fun e => flatten_apply K bh n e
  have e2 : (fun n : Fin 2048 => shapeCast S32x2048x64 W shapeCasts_S4x8x2048x64_S32x2048x64 (ix3 bh n d))
      = fun n : Fin 2048 => W (ix4 (⟨bh.val / 8, by have := bh.isLt; omega⟩ : Fin 4) (⟨bh.val % 8, by omega⟩ : Fin 8) n d) :=
    funext fun n => flatten_apply W bh n d
  rw [e0, e1, e2]

/-- `Attention.entry` depends on its coordinates through their values only. -/
theorem entry_congr (Q K W : S4x8x2048x64.Idx → EReal) {b b' : Fin 4} {h h' : Fin 8} (r : Fin 2048) (d : Fin 64)
    (hb : b.val = b'.val) (hh : h.val = h'.val) : Cert.Attention.entry Q K W b h r d = Cert.Attention.entry Q K W b' h' r d := by
  obtain rfl := Fin.ext hb; obtain rfl := Fin.ext hh; rfl

/-! ## The program's result -/

/-- The line after the launch unflattens the launch's output array. -/
theorem tail_eq (c : Dev nD) :
    Pipeline.afterTail₀ cfgs (dats m) 0 (V0 m) [hostOps1] c main_v4
      = shapeCast S4x8x2048x64 ((dats m 0 c).arrAt 3 cfg0.N) shapeCasts_S32x2048x64_S4x8x2048x64 := by
  unfold Pipeline.afterTail₀
  show StableHlo.after hostOps1 _ (Proc.devRef .tc main_v4) = _
  after_results
  rw [Pipeline.withArrays_arr spec0 launch0.win.arr_inj c _ _ 3]
  rfl

/-- THE RESULT ARRAY is `Attention.result` of the three arguments. -/
theorem result_eq (c : Dev nD) :
    Pipeline.afterTail₀ cfgs (dats m) 0 (V0 m) [hostOps1] c main_v4
      = Cert.Attention.result (m ((c : Thread nD τ).loc main_arg0)) (m ((c : Thread nD τ).loc main_arg1)) (m ((c : Thread nD τ).loc main_arg2)) := by
  rw [tail_eq, launched, flat0, flat1, flat2]
  funext i
  obtain ⟨b, h, r, d, rfl⟩ : ∃ (b : Fin 4) (h : Fin 8) (r : Fin 2048) (d : Fin 64), i = ix4 b h r d := ⟨i 0, i 1, i 2, i 3, eq_ix4 i⟩
  have hb : b.val < 4 := b.isLt
  have hh : h.val < 8 := h.isLt
  rw [unflatten_apply, Cert.Attention.result_ix4]
  show headEntry _ _ _ (⟨b.val * 8 + h.val, _⟩ : Fin 32) r d = _
  rw [headEntry_flat]
  exact entry_congr _ _ _ r d (show (b.val * 8 + h.val) / 8 = b.val by omega) (show (b.val * 8 + h.val) % 8 = h.val by omega)

/-- The frame run re-posted: the result at `Attention.result` of the arguments, the arguments unchanged. -/
theorem run : θ_run defs (onTc (τ := τ) (main (F := Ideal))) ⟨m, fun _ => 0, ρ⟩ fun r => ∀ c : Dev nD,
      r.2.mem ((c.tc : Thread nD τ).loc main_v4)
        = Cert.Attention.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceEntry.lean ====
/-
  What the reference computes, entry by entry.

  The reference takes the scores of a head as one batched product, scales them by `1 / √64`, lowers each row by its
  maximum, exponentiates, divides every exponential by its row's sum, and takes the batched product with the values.
  Entry `(b, h, r, d)` of the result is `SoftmaxRow.normaliseFirst` of query row `(b, h, r)`, the head's key rows,
  and column `d` of the head's values.
-/
import proofs.«172825_j29764123361713_2_alg».proof.Proof.Gen.ReferenceIdeal.Read
import proofs.«172825_j29764123361713_2_alg».proof.Proof.SoftmaxRow
import Idealize.ShloMosaic.Lib.ValueIdx
import Idealize.ShloMosaic.Lib.Pipeline.Value
import Idealize.ShloMosaic.PureOps.Ideal.Laws

noncomputable section

namespace Cert.ReferenceIdeal.Entry

open Cert.ReferenceIdeal Cert.ReferenceIdeal.Gen Cert.ReferenceIdeal.Read Idealize.ShloMosaic Idealize.ShloMosaic.ValueIdx

section Stages

variable (Q K : (⟨S4x8x2048x64, .f32⟩ : BufTy).Contents (Elt Ideal)) (b : Fin 4) (h : Fin 8) (r : Fin 2048)

/-! ### The layout operations' index functions at explicit coordinates -/

/-- The first product's left operand is read at the query row and the contracted coordinate. -/
private theorem lidx_v2_ix (n : Fin 2048) (e : Fin 64) : lidx_main_v2 (ix4 b h r n) e = ix4 b h r e :=
  funext fun a => Fin.ext (by match a with | ⟨0, _⟩ => rfl | ⟨1, _⟩ => rfl | ⟨2, _⟩ => rfl | ⟨3, _⟩ => rfl)

/-- The first product's right operand is read at key row `n` and the contracted coordinate. -/
private theorem ridx_v2_ix (n : Fin 2048) (e : Fin 64) : ridx_main_v2 (ix4 b h r n) e = ix4 b h n e :=
  funext fun a => Fin.ext (by match a with | ⟨0, _⟩ => rfl | ⟨1, _⟩ => rfl | ⟨2, _⟩ => rfl | ⟨3, _⟩ => rfl)

/-- The row maximum, broadcast back over the row, is read at the row. -/
private theorem idx_v9_v8_ix (n : Fin 2048) : idx_main_v8 (idx_main_v9 (ix4 b h r n)) = ix3 b h r :=
  funext fun a => Fin.ext (by match a with | ⟨0, _⟩ => rfl | ⟨1, _⟩ => rfl | ⟨2, _⟩ => rfl)

/-- The row sum, broadcast back over the row, is read at the row. -/
private theorem idx_v14_v13_ix (n : Fin 2048) : idx_main_v13 (idx_main_v14 (ix4 b h r n)) = ix3 b h r :=
  funext fun a => Fin.ext (by match a with | ⟨0, _⟩ => rfl | ⟨1, _⟩ => rfl | ⟨2, _⟩ => rfl)

/-- The row sum's `n`-th term is read at column `n` of the row. -/
private theorem idx_v12_ix (n : Fin 2048) : idx_main_v12 (ix3 b h r) n = ix4 b h r n :=
  funext fun a => Fin.ext (by match a with | ⟨0, _⟩ => rfl | ⟨1, _⟩ => rfl | ⟨2, _⟩ => rfl | ⟨3, _⟩ => rfl)

/-- The second product's left operand is read at column `n` of the row. -/
private theorem lidx_v16_ix (d : Fin 64) (n : Fin 2048) : lidx_main_v16 (ix4 b h r d) n = ix4 b h r n :=
  funext fun a => Fin.ext (by match a with | ⟨0, _⟩ => rfl | ⟨1, _⟩ => rfl | ⟨2, _⟩ => rfl | ⟨3, _⟩ => rfl)

/-- The second product's right operand is read at row `n`, column `d` of the values. -/
private theorem ridx_v16_ix (d : Fin 64) (n : Fin 2048) : ridx_main_v16 (ix4 b h r d) n = ix4 b h n d :=
  funext fun a => Fin.ext (by match a with | ⟨0, _⟩ => rfl | ⟨1, _⟩ => rfl | ⟨2, _⟩ => rfl | ⟨3, _⟩ => rfl)

/-! ### The stages at explicit coordinates, innermost first -/

/-- The scores: the dot product of query row `(b, h, r)` with key row `n`, times `1 / √64`. -/
private theorem score_apply (n : Fin 2048) :
    val_main_v4 (F := Ideal) Q K (ix4 b h r n)
      = Cert.SoftmaxRow.scoresScaledAfter (Ideal.ofBits .f32 0x42800000#32) (Ideal.ofBits .f32 0x3F800000#32)
          (fun e : Fin 64 => Q (ix4 b h r e)) (fun (n : Fin 2048) (e : Fin 64) => K (ix4 b h n e)) n := by
  rw [val_main_v4_apply, val_main_v2_apply, val_main_v3_apply]
  simp only [lidx_v2_ix, ridx_v2_ix]
  rfl

/-- The row maximum: the reduction over the last axis is the fold of `max` over the row, from `-∞`. -/
private theorem rowMax_apply :
    val_main_v5 (F := Ideal) Q K (ix3 b h r)
      = Cert.SoftmaxRow.rowMax (Ideal.ofBits .f32 0xFF800000#32)
          (fun n : Fin 2048 => val_main_v4 (F := Ideal) Q K (ix4 b h r n)) := by
  unfold val_main_v5 Cert.SoftmaxRow.rowMax
  refine (Host.reduce_eq_fold_single (FloatOps.maximumf (F := Ideal) (φ := .f32)) _ _
    reducesTo_S4x8x2048x2048_S4x8x2048_d3 (by decide) h_S_ (ix3 b h r)).trans ?_
  show (Finset.univ : Finset (Fin 2048)).fold max (Ideal.ofBits .f32 0xFF800000#32) _ = _
  refine Finset.fold_congr (fun n _ => ?_)
  refine congrArg (val_main_v4 (F := Ideal) Q K) (funext fun a => Fin.ext ?_)
  match a with | ⟨0, _⟩ => rfl | ⟨1, _⟩ => rfl | ⟨2, _⟩ => rfl | ⟨3, _⟩ => rfl

/-- The maximum joined once more with `-∞`. -/
private theorem max_apply :
    val_main_v7 (F := Ideal) Q K (ix3 b h r)
      = max (Ideal.ofBits .f32 0xFF800000#32) (val_main_v5 (F := Ideal) Q K (ix3 b h r)) := by
  rw [val_main_v7_apply, val_main_v6_apply]
  rfl

/-- The exponential of a score lowered by its row's maximum. -/
private theorem weight_apply (n : Fin 2048) :
    val_main_v11 (F := Ideal) Q K (ix4 b h r n)
      = Ideal.exp (val_main_v4 (F := Ideal) Q K (ix4 b h r n) - val_main_v7 (F := Ideal) Q K (ix3 b h r)) := by
  rw [val_main_v11_apply, val_main_v10_apply, val_main_v9_apply, val_main_v8_apply, idx_v9_v8_ix]
  rfl

/-- The normaliser: zero plus the sum of the row's exponentials. -/
private theorem norm_apply :
    val_main_v12 (F := Ideal) Q K (ix3 b h r)
      = Ideal.ofBits .f32 0x00000000#32 + ∑ n : Fin 2048, val_main_v11 (F := Ideal) Q K (ix4 b h r n) := by
  rw [val_main_v12_apply]
  simp only [idx_v12_ix]
  rfl

/-- Each exponential divided by its row's normaliser. -/
private theorem softmax_apply (n : Fin 2048) :
    val_main_v15 (F := Ideal) Q K (ix4 b h r n)
      = Ideal.div (val_main_v11 (F := Ideal) Q K (ix4 b h r n)) (val_main_v12 (F := Ideal) Q K (ix3 b h r)) := by
  rw [val_main_v15_apply, val_main_v14_apply, val_main_v13_apply, idx_v14_v13_ix]
  rfl

end Stages

/-- THE REFERENCE'S RESULT AT AN INDEX. -/
theorem result_apply (Q K V : (⟨S4x8x2048x64, .f32⟩ : BufTy).Contents (Elt Ideal)) (b : Fin 4) (h : Fin 8) (r : Fin 2048) (d : Fin 64) :
    val_main_v16 (F := Ideal) Q K V (ix4 b h r d)
      = Cert.SoftmaxRow.normaliseFirst (Ideal.ofBits .f32 0x42800000#32) (Ideal.ofBits .f32 0xFF800000#32)
          (Ideal.ofBits .f32 0x3F800000#32) (Ideal.ofBits .f32 0x00000000#32)
          (fun e : Fin 64 => Q (ix4 b h r e)) (fun (n : Fin 2048) (e : Fin 64) => K (ix4 b h n e)) (fun n : Fin 2048 => V (ix4 b h n d)) := by
  rw [val_main_v16_apply]
  simp only [lidx_v16_ix, ridx_v16_ix, softmax_apply, norm_apply, weight_apply, max_apply, rowMax_apply, score_apply]
  rfl

end Cert.ReferenceIdeal.Entry

end
-- ==== Proof.Words.lean ====
/-
  The float words the two programs spell, as extended reals: the scale one eighth, minus infinity under the row
  maximum, one over the normaliser, and sixty-four under the reference's square root. (The zero word is the
  library's `Ideal.ofBits_zero_f32`.)
-/
import Idealize.ShloMosaic.PureOps.Ideal.Laws

noncomputable section

namespace Cert.Words

open Idealize.ShloMosaic

/-- `0x3E000000` is `2⁻³`. -/
theorem eighth : Ideal.ofBits .f32 0x3E000000#32 = (((1 / 8 : ℝ)) : EReal) := by
  simp [Ideal.ofBits, Ideal.ieee, -EReal.coe_mul]; norm_num

/-- `0xFF800000` is `-∞`. -/
theorem negInf : Ideal.ofBits .f32 0xFF800000#32 = (⊥ : EReal) := by
  simp [Ideal.ofBits, Ideal.ieee]

/-- `0x3F800000` is `1`. -/
theorem one : Ideal.ofBits .f32 0x3F800000#32 = (1 : EReal) := by
  simp [Ideal.ofBits, Ideal.ieee, -EReal.coe_mul]; norm_num

/-- `0x42800000` is `64`. -/
theorem sixtyFour : Ideal.ofBits .f32 0x42800000#32 = (((64 : ℝ)) : EReal) := by
  simp [Ideal.ofBits, Ideal.ieee, -EReal.coe_mul]; norm_num

end Cert.Words

end
-- ==== Proof.Bridge.lean ====
/-
  The bridge: on arrays of real numbers the reference's result is `Attention.result`.

  Entry by entry the reference computes the normalise-first arrangement and `Attention.result` is the scale-first
  one; the float words are one eighth, minus infinity, one, sixty-four and zero; and on real inputs the two
  arrangements agree (`SoftmaxRow.scaleFirst_eq_normaliseFirst`).
-/
import proofs.«172825_j29764123361713_2_alg».proof.Proof.ReferenceEntry
import proofs.«172825_j29764123361713_2_alg».proof.Proof.Attention
import proofs.«172825_j29764123361713_2_alg».proof.Proof.Words

noncomputable section

namespace Cert.Bridge

open Cert.ReferenceIdeal Cert.ReferenceIdeal.Read Idealize.ShloMosaic Idealize.ShloMosaic.ValueIdx

/-- THE BRIDGE. -/
theorem reference_eq_result (Q K V : (⟨S4x8x2048x64, .f32⟩ : BufTy).Contents (Elt Ideal))
    (hQ : ∀ i, ∃ x : ℝ, Q i = (x : EReal)) (hK : ∀ i, ∃ x : ℝ, K i = (x : EReal)) (hV : ∀ i, ∃ x : ℝ, V i = (x : EReal)) :
    val_main_v16 (F := Ideal) Q K V = Cert.Attention.result Q K V := by
  funext i
  -- split the index into its four coordinates
  obtain ⟨b, h, r, d, rfl⟩ : ∃ (b : Fin 4) (h : Fin 8) (r : Fin 2048) (d : Fin 64), i = ix4 b h r d :=
    ⟨i 0, i 1, i 2, i 3, eq_ix4 i⟩
  -- the reference's entry is the normalise-first arrangement, the result's entry the scale-first one
  rw [Cert.ReferenceIdeal.Entry.result_apply]
  show _ = Cert.Attention.entry Q K V b h r d
  unfold Cert.Attention.entry
  -- the five float words
  rw [Cert.Words.eighth, Cert.Words.negInf, Cert.Words.one, Cert.Words.sixtyFour, Ideal.ofBits_zero_f32]
  -- every entry of the three arrays is a real
  choose q hq using hQ
  choose k hk using hK
  choose v hv using hV
  simp only [hq, hk, hv]
  -- on real inputs the two arrangements agree
  exact (Cert.SoftmaxRow.scaleFirst_eq_normaliseFirst (N := Fin 2048) (D := Fin 64)
    (fun e => q (ix4 b h r e)) (fun n e => k (ix4 b h n e)) (fun n => v (ix4 b h n d))).symm

end Cert.Bridge

end
-- ==== Proof.FiniteInputs.lean ====
/-
  What the precondition says, entry by entry: each of the three argument arrays holds real numbers only.

  The precondition is the conjunction of three statements "every entry's absolute value is below +∞". On the
  extended reals `|x| = max x (-x)`, so `|x| < ⊤` excludes both infinities, and what is left is a real.
-/
import proofs.«172825_j29764123361713_2_alg».proof.Pre_finite_inputs
import proofs.«172825_j29764123361713_2_alg».proof.Proof.Gen.Pre_finite_inputs
import Idealize.ShloMosaic.PureOps.Ideal.Laws
import Idealize.ShloMosaic.Lib.ReduceAll
import Idealize.ShloMosaic.Lib.ValueIdx

noncomputable section

namespace Cert.FiniteInputs

open Idealize.ShloMosaic

/-- An extended real whose absolute value is below `+∞` is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The scalar shape has exactly one index. -/
private instance subsingleton_scalarIdx : Subsingleton Cert.Pre_finite_inputs.S_.Idx :=
  ⟨fun _ _ => funext fun d => d.elim0⟩

/-- The pattern `0x7F800000` denotes `+∞`. -/
private theorem ofBits_inf : Ideal.ofBits .f32 0x7F800000#32 = ⊤ := by
  simp [Ideal.ofBits, Ideal.ieee]

/-- One entry of `|a| < +∞` being the bit 1 says that the entry is a real. -/
private theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hlt
  simp [Ideal.cmp, hlt] at h

/-- THE PRECONDITION, READ: if the printed predicate is all ones on three arrays, every entry of each is a real. -/
theorem reals_of_pre (a0 a1 a2 : FVec Ideal Cert.Pre_finite_inputs.S4x8x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  -- the predicate is (all₀ ∧ all₁) ∧ all₂
  obtain ⟨h01, hc⟩ := IntOp.andi_eq_one.1 h0
  obtain ⟨ha, hb⟩ := IntOp.andi_eq_one.1 h01
  -- each conjunct is a reduction by `and` over every index, so each of its entries is 1
  exact ⟨fun i => real_of_cmp (a0 i) (Host.reduce_andi_all _ _ _ _ _ ha i),
    fun i => real_of_cmp (a1 i) (Host.reduce_andi_all _ _ _ _ _ hb i),
    fun i => real_of_cmp (a2 i) (Host.reduce_andi_all _ _ _ _ _ hc i)⟩

end Cert.FiniteInputs

end
-- ==== Proof.lean ====
/-
  The certificate of the attention kernel against its reference.

  Both programs compute, at every index `(b, h, r, d)` of a [4, 8, 2048, 64] result,
      ∑ n, softmax (Q[b,h,r,:] · K[b,h,n,:] / √64) n * V[b,h,n,d]
  on the extended reals. The kernel folds the scale `1/8` into the query, works on heads flattened to one axis in
  blocks of 512 query rows, and normalises once, after the weighted sum; the reference scales the scores by
  `1 / √64` and normalises every weight. On finite inputs the two are one function: `SoftmaxRow` holds the law,
  `KernelBlock` and `KernelArray` read the kernel program's result as `Attention.result` of the arguments,
  `ReferenceEntry` and `Bridge` read the reference's result as the same function, and `FiniteInputs` reads the
  precondition as "every entry is a real". The three frames are the generated runs; the idealized kernel is the
  kernel's own text read on the extended reals, so there is nothing to preserve.
-/
import proofs.«172825_j29764123361713_2_alg».proof.Defs
import proofs.«172825_j29764123361713_2_alg».proof.Proof.Gen.Kernel
import proofs.«172825_j29764123361713_2_alg».proof.Proof.Gen.Kernel.Skeleton
import proofs.«172825_j29764123361713_2_alg».proof.Proof.Gen.Kernel.Launch
import proofs.«172825_j29764123361713_2_alg».proof.Proof.Gen.Kernel.Points
import proofs.«172825_j29764123361713_2_alg».proof.Proof.Gen.Kernel.Frame
import proofs.«172825_j29764123361713_2_alg».proof.Proof.Gen.KernelIdeal
import proofs.«172825_j29764123361713_2_alg».proof.Proof.Gen.KernelIdeal.Skeleton
import proofs.«172825_j29764123361713_2_alg».proof.Proof.Gen.KernelIdeal.Launch
import proofs.«172825_j29764123361713_2_alg».proof.Proof.Gen.KernelIdeal.Points
import proofs.«172825_j29764123361713_2_alg».proof.Proof.Gen.KernelIdeal.Frame
import proofs.«172825_j29764123361713_2_alg».proof.Proof.Gen.ReferenceIdeal
import proofs.«172825_j29764123361713_2_alg».proof.Proof.Gen.ReferenceIdeal.Run
import proofs.«172825_j29764123361713_2_alg».proof.Proof.Gen.ReferenceIdeal.Read
import proofs.«172825_j29764123361713_2_alg».proof.Proof.Gen.Pre_finite_inputs
import proofs.«172825_j29764123361713_2_alg».proof.Proof.KernelArray
import proofs.«172825_j29764123361713_2_alg».proof.Proof.Bridge
import proofs.«172825_j29764123361713_2_alg».proof.Proof.FiniteInputs
import Idealize.ShloMosaic.Adequacy
import Idealize.ShloMosaic.Init

noncomputable section

namespace Cert.Proof

open Idealize.ShloMosaic Idealize.SL.Sem

/-- The kernel program runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- On finite inputs both programs end with `Attention.result` of arguments that agree. -/
theorem algebraic : Cert.algebraic_KernelIdeal_ReferenceIdeal := by
  intro m ρ m' ρ' hpre hagree
  refine ⟨fun c => Cert.Attention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ?_
  rw [(hagree c).1, (hagree c).2.1, (hagree c).2.2]
  obtain ⟨h0, h1, h2⟩ := Cert.FiniteInputs.reals_of_pre _ _ _ (hpre c)
  exact Cert.Bridge.reference_eq_result _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
